-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S256x128 .f32) (main_arg6 : FVec F S128 .f32) (main_arg7 : FVec F S128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x128 .f32) (main_arg3 : FVec F S256x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩

abbrev nBuf : Space → Nat
  | .hbm => 20
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x128, .f32⟩
  | .hbm, ⟨13, _⟩ => ⟨S800000x1, .i32⟩
  | .hbm, ⟨14, _⟩ => ⟨S50000x128, .f32⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_1_0 : S2x800000.Slices ![1, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000x128_S800000x1_S800000x128_1_0_0_1_wf : ScatterDims.WF S50000x128 S800000x1 S800000x128 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S1x256 : Shape := ⟨2, ![1, 256]⟩
abbrev S1x128 : Shape := ⟨2, ![1, 128]⟩
abbrev S50000 : Shape := ⟨1, ![50000]⟩
abbrev S50000x1 : Shape := ⟨2, ![50000, 1]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x128, .f32⟩
  | .hbm, ⟨13, _⟩ => ⟨S800000x1, .i32⟩
  | .hbm, ⟨14, _⟩ => ⟨S50000x128, .f32⟩
  | .hbm, ⟨15, _⟩ => ⟨S50000x256, .f32⟩
  | .hbm, ⟨16, _⟩ => ⟨S50000x256, .f32⟩
  | .hbm, ⟨17, _⟩ => ⟨S1x256, .f32⟩
  | .hbm, ⟨18, _⟩ => ⟨S50000x256, .f32⟩
  | .hbm, ⟨19, _⟩ => ⟨S50000x256, .f32⟩
  | .hbm, ⟨20, _⟩ => ⟨S50000x256, .f32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S50000x256, .f32⟩
  | .hbm, ⟨27, _⟩ => ⟨S50000x256, .f32⟩
  | .hbm, ⟨28, _⟩ => ⟨S50000x256, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000x128_S800000x1_S800000x128_1_0_0_1_wf : ScatterDims.WF S50000x128 S800000x1 S800000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.NodeRow.lean ====
/-
  One node's update of a message-passing layer, on the extended reals.

  A node has its own features `xr` and the sum `ar` of its incoming edges' features, 128 numbers each. The two are laid
  side by side (`feat`, 256 numbers), sent through a linear map `W1`, `b1` and the SiLU function `z ↦ z · σ(z)` (σ the logistic
  function), then through a second linear map `W2`, `b2` back to 128 numbers. That row is centred at its mean, scaled by
  the reciprocal square root of its variance plus a small constant (means are sums divided by the constant 128), multiplied
  entry by entry by `γ`, shifted by `β` and added to `xr`.

  Nothing here mentions a program: a row is a function on `Fin 128` or `Fin 256`, and the three float constants stay the
  binary words both programs spell, so they are never evaluated. The one word that IS evaluated is `1.0`: the SiLU function is
  written once with the logistic function and once as `1 / (1 + e^(-z))` over that word.
-/
import Idealize.ShloMosaic.PureOps.Ideal
import Idealize.ShloMosaic.Lib.ValueIdx

noncomputable section

open scoped BigOperators

namespace Cert.NodeRow

open Idealize.ShloMosaic

/-- A node's own features followed by its aggregated edge features. -/
def feat (xr ar : Fin 128 → EReal) (j : Fin 256) : EReal :=
  if h : j.val < 128 then xr ⟨j.val, h⟩ else ar ⟨j.val - 128, by have := j.isLt; omega⟩

/-- The SiLU function `z · σ(z)`. -/
def silu (z : EReal) : EReal := z * Ideal.logistic z

/-- The hidden layer: the first linear map of the joined features, gated. -/
def hidden (xr ar : Fin 128 → EReal) (W1 : Fin 256 → Fin 256 → EReal) (b1 : Fin 256 → EReal) (k : Fin 256) : EReal :=
  silu ((∑ j : Fin 256, feat xr ar j * W1 j k) + b1 k)

/-- The second linear map, from 256 numbers to 128. -/
def project (h : Fin 256 → EReal) (W2 : Fin 256 → Fin 128 → EReal) (b2 : Fin 128 → EReal) (q : Fin 128) : EReal :=
  (∑ k : Fin 256, h k * W2 k q) + b2 q

/-- The mean of a row of 128 numbers: their sum divided by the constant 128.0. -/
def mean (h : Fin 128 → EReal) : EReal :=
  Ideal.div (∑ q : Fin 128, h q) (Ideal.ofBits .f32 0x43000000#32)

/-- A row centred at its mean and scaled by `(variance + ε)^(-1/2)`, the variance the mean of the squared deviations. -/
def normed (h : Fin 128 → EReal) (q : Fin 128) : EReal :=
  (h q - mean h) * Ideal.rsqrt (mean (fun q' => (h q' - mean h) * (h q' - mean h)) + Ideal.ofBits .f32 0x3727C5AC#32)

/-- The node's new features. -/
def out (xr ar : Fin 128 → EReal) (W1 : Fin 256 → Fin 256 → EReal) (b1 : Fin 256 → EReal)
    (W2 : Fin 256 → Fin 128 → EReal) (b2 γ β : Fin 128 → EReal) (q : Fin 128) : EReal :=
  xr q + (normed (project (hidden xr ar W1 b1) W2 b2) q * γ q + β q)

/-- The whole layer: every node's new features from the node features `x`, the aggregated edge features `agg` and the
    weights, entry `(r, q)` being row `r`'s update at `q`. Row `r` of the result reads row `r` of `x` and of `agg` only. -/
def update (x agg : (⟨2, ![50000, 128]⟩ : Shape).Idx → EReal) (W1 : Fin 256 → Fin 256 → EReal) (b1 : Fin 256 → EReal)
    (W2 : Fin 256 → Fin 128 → EReal) (b2 γ β : Fin 128 → EReal) : (⟨2, ![50000, 128]⟩ : Shape).Idx → EReal :=
  fun i => out (fun c => x (ValueIdx.ix2 (i 0) c)) (fun c => agg (ValueIdx.ix2 (i 0) c)) W1 b1 W2 b2 γ β (i 1)

/-- The layer at `(r, q)` is row `r`'s update at `q`. -/
theorem update_apply (x agg : (⟨2, ![50000, 128]⟩ : Shape).Idx → EReal) (W1 : Fin 256 → Fin 256 → EReal) (b1 : Fin 256 → EReal)
    (W2 : Fin 256 → Fin 128 → EReal) (b2 γ β : Fin 128 → EReal) (r : Fin 50000) (q : Fin 128) :
    update x agg W1 b1 W2 b2 γ β (ValueIdx.ix2 r q)
      = out (fun c => x (ValueIdx.ix2 r c)) (fun c => agg (ValueIdx.ix2 r c)) W1 b1 W2 b2 γ β q := rfl

/-- The word `1.0` denotes the number one. -/
theorem one_word : Ideal.ofBits .f32 0x3F800000#32 = 1 := by
  simp [Ideal.ofBits, Ideal.ieee, -EReal.coe_mul]
  norm_num

/-- The SiLU function spelt with a quotient, `z · (1 / (1 + e^(-z)))` over the word `1.0`, is the SiLU function. -/
theorem silu_quotient (z : EReal) :
    z * Ideal.div (Ideal.ofBits .f32 0x3F800000#32) (Ideal.ofBits .f32 0x3F800000#32 + Ideal.exp (-z)) = silu z := by
  rw [one_word]
  rfl

end Cert.NodeRow

end
-- ==== Proof.LibConcatColumns.lean ====
/-
  Two matrices with the same rows laid side by side, read at an index given by coordinates.

  `concatenate` along axis 1 of an `[R, a]` matrix `x` and an `[R, b]` matrix `y` into `[R, n]`, `n = a + b`: at `(r, j)`
  it holds `x (r, j)` when `j < a` and `y (r, j - a)` otherwise. The row is never touched, so the same statement serves
  a block of a few rows and the whole array.
-/
import Idealize.ShloMosaic.Lib.Pipeline.Value
import Idealize.ShloMosaic.Lib.ValueIdx

noncomputable section

namespace Cert.ConcatColumns

open Idealize.ShloMosaic Idealize.ShloMosaic.ValueIdx

variable {α : Type}

/-- Left of the seam: the first matrix at the same coordinates. -/
theorem concat_cols_left {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ (1 : Fin 2)) (r : Fin R) (j : Fin n) (hj : j.val < a) :
    concatenate ⟨2, ![R, n]⟩ (1 : Fin 2) [⟨⟨2, ![R, a]⟩, x⟩, ⟨⟨2, ![R, b]⟩, y⟩] h (ix2 r j) = x (ix2 r ⟨j.val, hj⟩) :=
  concatenate_pair_apply_left (1 : Fin 2) x y h (ix2 r j) rfl (ix2 r ⟨j.val, hj⟩)
    (fun c => by match c with | ⟨0, _⟩ => rfl | ⟨1, _⟩ => rfl)

/-- Right of the seam: the second matrix, the column counted from the seam. -/
theorem concat_cols_right {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ (1 : Fin 2)) (r : Fin R) (j : Fin n) (hj : a ≤ j.val)
    (hb : j.val - a < b) :
    concatenate ⟨2, ![R, n]⟩ (1 : Fin 2) [⟨⟨2, ![R, a]⟩, x⟩, ⟨⟨2, ![R, b]⟩, y⟩] h (ix2 r j) = y (ix2 r ⟨j.val - a, hb⟩) :=
  concatenate_pair_apply_right (1 : Fin 2) x y h (ix2 r j) rfl rfl (ix2 r ⟨j.val - a, hb⟩)
    (fun c hc => by
      match c with
      | ⟨0, _⟩ => rfl
      | ⟨1, _⟩ => exact absurd rfl hc)
    (by show j.val - a + a = j.val; omega)

end Cert.ConcatColumns

end
-- ==== Proof.RefRows.lean ====
/-
  The reference program read one node at a time.

  The reference computes the whole layer with host operations on [50000, ·] arrays. Read at an entry `(r, q)`, stage by
  stage, every one of them touches row `r` only: the joined features are row `r` of the node features followed by row
  `r` of the aggregated edge features; each matrix product is a sum over the contracted coordinate; each mean is a row
  sum from the zero word (which adds nothing) divided by the constant 128; the SiLU function is spelt with a quotient over the
  word 1.0. So the result at `(r, q)` is the node update `NodeRow.out` of row `r`. The aggregation itself (a
  scatter-add of the edge features) is carried as one term and never opened: the other program computes it the same way.
-/
import proofs.«105040_j31825707663673_1_alg».proof.Proof.Gen.ReferenceIdeal.Read
import proofs.«105040_j31825707663673_1_alg».proof.Proof.NodeRow
import proofs.«105040_j31825707663673_1_alg».proof.Proof.LibConcatColumns
import Idealize.ShloMosaic.PureOps.Ideal.Laws
import Idealize.ShloMosaic.Lib.ValueIdx

noncomputable section

open scoped BigOperators

namespace Cert.RefRows

open Cert.ReferenceIdeal Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal)) (x2 : (⟨S800000x128, .f32⟩ : BufTy).Contents (Elt Ideal))
  (x3 : (⟨S256x256, .f32⟩ : BufTy).Contents (Elt Ideal)) (x4 : (⟨S256, .f32⟩ : BufTy).Contents (Elt Ideal))
  (x5 : (⟨S256x128, .f32⟩ : BufTy).Contents (Elt Ideal)) (x6 x7 x8 : (⟨S128, .f32⟩ : BufTy).Contents (Elt Ideal))

/-- Row `r` of the node features. -/
abbrev xrow (r : Fin 50000) : Fin 128 → EReal := fun c => x0 (ix2 r c)
/-- Row `r` of the aggregated edge features (the scatter-add, unopened). -/
abbrev arow (r : Fin 50000) : Fin 128 → EReal := fun c => val_main_v4 (F := Ideal) x1 x2 (ix2 r c)
/-- A matrix by its two coordinates, a vector by its one. -/
abbrev mat {a b : ℕ} (w : (⟨2, ![a, b]⟩ : Shape).Idx → EReal) : Fin a → Fin b → EReal := fun j k => w (ix2 j k)
abbrev vec {a : ℕ} (v : (⟨1, ![a]⟩ : Shape).Idx → EReal) : Fin a → EReal := fun k => v (ix1 k)

/-- The joined features at `(r, j)`: row `r` of the node features, then row `r` of the aggregated ones. -/
theorem feat_at (r : Fin 50000) (j : Fin 256) :
    val_main_v5 (F := Ideal) x0 x1 x2 (ix2 r j) = NodeRow.feat (xrow x0 r) (arow x1 x2 r) j := by
  unfold val_main_v5 NodeRow.feat
  by_cases hj : j.val < 128
  · rw [dif_pos hj]
    exact ConcatColumns.concat_cols_left x0 (val_main_v4 (F := Ideal) x1 x2) _ r j hj
  · rw [dif_neg hj]
    exact ConcatColumns.concat_cols_right x0 (val_main_v4 (F := Ideal) x1 x2) _ r j (by omega) (by have := j.isLt; omega)

/-- The first linear map at `(r, k)`: the sum over the joined features, plus the bias. -/
theorem affine_at (r : Fin 50000) (k : Fin 256) :
    val_main_v9 (F := Ideal) x0 x1 x2 x3 x4 (ix2 r k)
      = (∑ j : Fin 256, NodeRow.feat (xrow x0 r) (arow x1 x2 r) j * mat x3 j k) + vec x4 k := by
  rw [val_main_v9_apply, val_main_v6_apply, val_main_v8_apply, val_main_v7_apply]
  show (∑ j : Fin 256, _ * _) + _ = _
  refine congrArg₂ (· + ·) (Finset.sum_congr rfl fun j _ => ?_) (congrArg x4 (funext fun a => by match a with | ⟨0, _⟩ => rfl))
  have e1 : lidx_main_v6 (ix2 r k) j = ix2 r j := funext fun a => by match a with | ⟨0, _⟩ => rfl | ⟨1, _⟩ => rfl
  have e2 : ridx_main_v6 (ix2 r k) j = ix2 j k := funext fun a => by match a with | ⟨0, _⟩ => rfl | ⟨1, _⟩ => rfl
  rw [e1, e2, feat_at]

/-- The hidden layer at `(r, k)`: the reference's quotient spelling of the SiLU function is the SiLU function. -/
theorem hidden_at (r : Fin 50000) (k : Fin 256) :
    val_main_v10 (F := Ideal) x0 x1 x2 x3 x4 (ix2 r k) = NodeRow.hidden (xrow x0 r) (arow x1 x2 r) (mat x3) (vec x4) k := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply, affine_at]
  exact NodeRow.silu_quotient _

/-- The second linear map at `(r, q)`. -/
theorem project_at (r : Fin 50000) (q : Fin 128) :
    val_main_v14 (F := Ideal) x0 x1 x2 x3 x4 x5 x6 (ix2 r q)
      = NodeRow.project (NodeRow.hidden (xrow x0 r) (arow x1 x2 r) (mat x3) (vec x4)) (mat x5) (vec x6) q := by
  rw [val_main_v14_apply, val_main_v11_apply, val_main_v13_apply, val_main_v12_apply]
  show (∑ k : Fin 256, _ * _) + _ = _
  refine congrArg₂ (· + ·) (Finset.sum_congr rfl fun k _ => ?_) (congrArg x6 (funext fun a => by match a with | ⟨0, _⟩ => rfl))
  have e1 : lidx_main_v11 (ix2 r q) k = ix2 r k := funext fun a => by match a with | ⟨0, _⟩ => rfl | ⟨1, _⟩ => rfl
  have e2 : ridx_main_v11 (ix2 r q) k = ix2 k q := funext fun a => by match a with | ⟨0, _⟩ => rfl | ⟨1, _⟩ => rfl
  rw [e1, e2, hidden_at]

/-- The second linear map's row `r`, as a row. -/
abbrev hrow (r : Fin 50000) : Fin 128 → EReal := fun q => val_main_v14 (F := Ideal) x0 x1 x2 x3 x4 x5 x6 (ix2 r q)

/-- The column of means at `(r, u)`: the host's row sum starts from the zero word, which adds nothing. -/
theorem mean_at (r : Fin 50000) (u : Fin 1) :
    val_main_v18 (F := Ideal) x0 x1 x2 x3 x4 x5 x6 (ix2 r u) = NodeRow.mean (hrow x0 x1 x2 x3 x4 x5 x6 r) := by
  rw [val_main_v18_apply, val_main_v16_apply, val_main_v17_apply, val_main_cst_1_apply, val_main_v15_apply, val_main_cst_0_apply]
  unfold NodeRow.mean
  show Ideal.div (Ideal.ofBits .f32 0x00000000#32 + ∑ k : Fin 128, _) (Ideal.ofBits .f32 0x43000000#32) = _
  rw [Ideal.ofBits_zero_f32, zero_add]
  refine congrArg (Ideal.div · _) (Finset.sum_congr rfl fun k _ => congrArg _ ?_)
  exact funext fun a => by match a with | ⟨0, _⟩ => rfl | ⟨1, _⟩ => rfl

/-- The centred row at `(r, q)`, in both places the reference computes it. -/
theorem centred_at (r : Fin 50000) (q : Fin 128) :
    val_main_v20 (F := Ideal) x0 x1 x2 x3 x4 x5 x6 (ix2 r q)
      = hrow x0 x1 x2 x3 x4 x5 x6 r q - NodeRow.mean (hrow x0 x1 x2 x3 x4 x5 x6 r) := by
  rw [val_main_v20_apply, val_main_v19_apply]
  have e : idx_main_v19 (ix2 r q) = ix2 r (0 : Fin 1) := funext fun a => by match a with | ⟨0, _⟩ => rfl | ⟨1, _⟩ => rfl
  rw [e, mean_at]
  rfl

theorem centred_at' (r : Fin 50000) (q : Fin 128) :
    val_main_v27 (F := Ideal) x0 x1 x2 x3 x4 x5 x6 (ix2 r q)
      = hrow x0 x1 x2 x3 x4 x5 x6 r q - NodeRow.mean (hrow x0 x1 x2 x3 x4 x5 x6 r) := by
  rw [val_main_v27_apply, val_main_v26_apply]
  have e : idx_main_v26 (ix2 r q) = ix2 r (0 : Fin 1) := funext fun a => by match a with | ⟨0, _⟩ => rfl | ⟨1, _⟩ => rfl
  rw [e, mean_at]
  rfl

/-- The reciprocal standard deviation of row `r`. -/
theorem rstd_at (r : Fin 50000) (u : Fin 1) :
    val_main_v30 (F := Ideal) x0 x1 x2 x3 x4 x5 x6 (ix2 r u)
      = Ideal.rsqrt (NodeRow.mean (fun q' => (hrow x0 x1 x2 x3 x4 x5 x6 r q' - NodeRow.mean (hrow x0 x1 x2 x3 x4 x5 x6 r))
          * (hrow x0 x1 x2 x3 x4 x5 x6 r q' - NodeRow.mean (hrow x0 x1 x2 x3 x4 x5 x6 r))) + Ideal.ofBits .f32 0x3727C5AC#32) := by
  rw [val_main_v30_apply, val_main_v29_apply, val_main_v28_apply, val_main_cst_4_apply, val_main_v25_apply, val_main_v23_apply,
    val_main_v24_apply, val_main_cst_3_apply, val_main_v22_apply, val_main_cst_2_apply]
  unfold NodeRow.mean
  show Ideal.rsqrt (Ideal.div (Ideal.ofBits .f32 0x00000000#32 + ∑ k : Fin 128, _) (Ideal.ofBits .f32 0x43000000#32)
      + Ideal.ofBits .f32 0x3727C5AC#32) = _
  rw [Ideal.ofBits_zero_f32, zero_add]
  refine congrArg (fun s => Ideal.rsqrt (Ideal.div s _ + _)) (Finset.sum_congr rfl fun k _ => ?_)
  have e : idx_main_v22 (idx_main_v23 (ix2 r u)) k = ix2 r k := funext fun a => by match a with | ⟨0, _⟩ => rfl | ⟨1, _⟩ => rfl
  rw [e, val_main_v21_apply, centred_at]
  rfl

/-- The reference's result at `(r, q)` is the node update of row `r`. -/
theorem out_at (r : Fin 50000) (q : Fin 128) :
    val_main_v39 (F := Ideal) x0 x1 x2 x3 x4 x5 x6 x7 x8 (ix2 r q)
      = NodeRow.out (xrow x0 r) (arow x1 x2 r) (mat x3) (vec x4) (mat x5) (vec x6) (vec x7) (vec x8) q := by
  have hrow_eq : hrow x0 x1 x2 x3 x4 x5 x6 r
      = NodeRow.project (NodeRow.hidden (xrow x0 r) (arow x1 x2 r) (mat x3) (vec x4)) (mat x5) (vec x6) :=
    funext fun q' => project_at x0 x1 x2 x3 x4 x5 x6 r q'
  rw [val_main_v39_apply, val_main_v38_apply, val_main_v37_apply, val_main_v36_apply, val_main_v35_apply, val_main_v34_apply,
    val_main_v33_apply, val_main_v32_apply, val_main_v31_apply, centred_at']
  have e : idx_main_v31 (ix2 r q) = ix2 r (0 : Fin 1) := funext fun a => by match a with | ⟨0, _⟩ => rfl | ⟨1, _⟩ => rfl
  have e7 : idx_main_v33 (idx_main_v34 (ix2 r q)) = ix1 q := funext fun a => by match a with | ⟨0, _⟩ => rfl
  have e8 : idx_main_v36 (idx_main_v37 (ix2 r q)) = ix1 q := funext fun a => by match a with | ⟨0, _⟩ => rfl
  rw [e, rstd_at, hrow_eq, e7, e8]
  rfl

/-- The reference's result array is the layer `NodeRow.update` of its arguments, the aggregation unopened. -/
theorem result_eq :
    val_main_v39 (F := Ideal) x0 x1 x2 x3 x4 x5 x6 x7 x8
      = NodeRow.update x0 (val_main_v4 (F := Ideal) x1 x2) (mat x3) (vec x4) (mat x5) (vec x6) (vec x7) (vec x8) := by
  funext i
  obtain ⟨r, q, rfl⟩ : ∃ (r : Fin 50000) (q : Fin 128), i = ix2 r q := ⟨i 0, i 1, eq_ix2 i⟩
  rw [out_at, NodeRow.update_apply]

end Cert.RefRows

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.KernelRows.lean ====
/-
  The kernel body's arithmetic read one row at a time.

  At one grid point the body holds a block of 5000 nodes: their features `P0`, their aggregated edge features `P1`, and
  the whole weights (`P2`, `P4` matrices; `P3`, `P5` one-row arrays). Its arithmetic is cut here into four stages of
  vector operations — the first linear map of the joined features (`affineBlock`), the SiLU function (`siluBlock`), the second
  linear map (`projectBlock`) and the normalisation of each row (`normBlock`) — and each stage is read at an entry
  `(p, q)` of the block: a matrix product into the zero accumulator is the sum over the contracted coordinate, a one-row
  array broadcast down the rows reads its entry `q`, a lane sum cast to a column, divided by 128 and broadcast along the
  lanes reads the mean of row `p`. Every stage touches row `p` only, so the block's entry `(p, q)` is the node update
  `NodeRow.out` of row `p` of the two feature blocks.
-/
import proofs.«105040_j31825707663673_1_alg».proof.Proof.Gen.KernelIdeal.Value
import proofs.«105040_j31825707663673_1_alg».proof.Proof.NodeRow
import proofs.«105040_j31825707663673_1_alg».proof.Proof.LibConcatColumns
import proofs.«105040_j31825707663673_1_alg».proof.Proof.LibRowColDot
import proofs.«105040_j31825707663673_1_alg».proof.Proof.LibColumnBroadcast
import proofs.«105040_j31825707663673_1_alg».proof.Proof.LibUnitAxisSums
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelRows

open Cert.KernelIdeal Cert.KernelIdeal.Gen Idealize.ShloMosaic Idealize.ShloMosaic.ValueIdx

/-! ## The stages -/

/-- The first linear map on a block: the joined features times `P2` into the zero accumulator, plus the row `P3`. -/
def affineBlock (P0 P1 : FVec Ideal S5000x128 .f32) (P2 : FVec Ideal S256x256 .f32) (P3 : FVec Ideal S1x256 .f32) :
    FVec Ideal S5000x256 .f32 :=
  addf (matmul dot_S5000x256_S256x256_S5000x256_1_0_0_1_n_n none
      (concatenate S5000x256 1 [⟨S5000x128, P0⟩, ⟨S5000x128, shapeCast S5000x128 P1 shapeCasts_S5000x128_S5000x128⟩]
        concatenates_S5000x128_S5000x128_S5000x256_d1) P2 (constant S5000x256 .f32 0x00000000#32))
    (broadcastTo S5000x256 (shapeCast S1x256 P3 shapeCasts_S1x256_S1x256) broadcasts_S1x256_S5000x256)

/-- The SiLU function on a block, entry by entry. -/
def siluBlock (z : FVec Ideal S5000x256 .f32) : FVec Ideal S5000x256 .f32 := mulf z (logistic z)

/-- The second linear map on a block. -/
def projectBlock (h : FVec Ideal S5000x256 .f32) (P4 : FVec Ideal S256x128 .f32) (P5 : FVec Ideal S1x128 .f32) :
    FVec Ideal S5000x128 .f32 :=
  addf (matmul dot_S5000x256_S256x128_S5000x128_1_0_0_1_n_n none h P4 (constant S5000x128 .f32 0x00000000#32))
    (broadcastTo S5000x128 (shapeCast S1x128 P5 shapeCasts_S1x128_S1x128) broadcasts_S1x128_S5000x128)

/-- The rows' means as a column: the lane sum from the zero word, cast to a column, over the constant 128. -/
def meanColumn (g : FVec Ideal S5000x128 .f32) : FVec Ideal S5000x1 .f32 :=
  divf (shapeCast S5000x1 (multiReduction .add [1] S5000 g 0x00000000#32 reduces_S5000x128_S5000 (.inl rfl) rfl) shapeCasts_S5000_S5000x1)
    (broadcast S5000x1 (Scalar.ofBits .f32 0x43000000#32))

/-- The normalisation of every row of a block. -/
def normBlock (g : FVec Ideal S5000x128 .f32) : FVec Ideal S5000x128 .f32 :=
  mulf (subf g (broadcastTo S5000x128 (meanColumn g) broadcasts_S5000x1_S5000x128))
    (broadcastTo S5000x128
      (rsqrt (addf
        (meanColumn (mulf (subf g (broadcastTo S5000x128 (meanColumn g) broadcasts_S5000x1_S5000x128))
          (subf g (broadcastTo S5000x128 (meanColumn g) broadcasts_S5000x1_S5000x128))))
        (broadcast S5000x1 (Scalar.ofBits .f32 0x3727C5AC#32))))
      broadcasts_S5000x1_S5000x128)

/-- The body's second payload is the four stages in order. -/
theorem pay2_stages (P0 P1 : Vec Ideal S5000x128 .f32) (P2 : Vec Ideal S256x256 .f32) (P3 : Vec Ideal S1x256 .f32)
    (P4 : Vec Ideal S256x128 .f32) (P5 : Vec Ideal S1x128 .f32) :
    k0_pay2 P0 P1 P2 P3 P4 P5 = normBlock (projectBlock (siluBlock (affineBlock P0 P1 P2 P3)) P4 P5) := rfl

/-! ## The two matrix products' dimension numbers -/

theorem dot1_keeps_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

theorem dot1_keeps_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

theorem dot2_keeps_row (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

theorem dot2_keeps_col (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-! ## Each stage at an entry -/

/-- The joined features of a block at `(p, j)`. -/
theorem feat_at (P0 P1 : FVec Ideal S5000x128 .f32) (p : Fin 5000) (j : Fin 256) :
    concatenate S5000x256 1 [⟨S5000x128, P0⟩, ⟨S5000x128, shapeCast S5000x128 P1 shapeCasts_S5000x128_S5000x128⟩]
        concatenates_S5000x128_S5000x128_S5000x256_d1 (ix2 p j)
      = NodeRow.feat (fun c => P0 (ix2 p c)) (fun c => P1 (ix2 p c)) j := by
  rw [shapeCast_self P1 shapeCasts_S5000x128_S5000x128]
  unfold NodeRow.feat
  by_cases hj : j.val < 128
  · rw [dif_pos hj]
    exact ConcatColumns.concat_cols_left P0 P1 _ p j hj
  · rw [dif_neg hj]
    exact ConcatColumns.concat_cols_right P0 P1 _ p j (by omega) (by have := j.isLt; omega)

/-- A one-row array cast to itself and broadcast down the rows reads its entry `k`. -/
theorem row_at {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ v h1) h2 (ix2 p k) = v (ix2 (0 : Fin 1) k) :=
  (broadcastTo_1b_ab_apply _ h2 p k).trans (congrFun (shapeCast_self v h1) _)

/-- The first linear map at `(p, k)`. -/
theorem affine_at (P0 P1 : FVec Ideal S5000x128 .f32) (P2 : FVec Ideal S256x256 .f32) (P3 : FVec Ideal S1x256 .f32)
    (p : Fin 5000) (k : Fin 256) :
    affineBlock P0 P1 P2 P3 (ix2 p k)
      = (∑ j : Fin 256, NodeRow.feat (fun c => P0 (ix2 p c)) (fun c => P1 (ix2 p c)) j * P2 (ix2 j k)) + P3 (ix2 (0 : Fin 1) k) := by
  unfold affineBlock
  show (matmul _ none _ P2 _ (ix2 p k) : EReal) + broadcastTo S5000x256 _ _ (ix2 p k) = _
  refine congrArg₂ (· + ·) ?_ (row_at P3 _ _ p k)
  refine (RowColDot.matmul_rowcol dot_S5000x256_S256x256_S5000x256_1_0_0_1_n_n rfl rfl rfl rfl dot1_keeps_row dot1_keeps_col none _ P2 (ix2 p k)).trans ?_
  exact Finset.sum_congr rfl fun j _ => congrArg (· * P2 (ix2 j k)) (feat_at P0 P1 p j)

/-- The SiLU function at an entry. -/
theorem silu_at (z : FVec Ideal S5000x256 .f32) (i : S5000x256.Idx) : siluBlock z i = NodeRow.silu (z i) := rfl

/-- The second linear map at `(p, q)`. -/
theorem project_at (h : FVec Ideal S5000x256 .f32) (P4 : FVec Ideal S256x128 .f32) (P5 : FVec Ideal S1x128 .f32)
    (p : Fin 5000) (q : Fin 128) :
    projectBlock h P4 P5 (ix2 p q) = (∑ k : Fin 256, h (ix2 p k) * P4 (ix2 k q)) + P5 (ix2 (0 : Fin 1) q) := by
  unfold projectBlock
  show (matmul _ none h P4 _ (ix2 p q) : EReal) + broadcastTo S5000x128 _ _ (ix2 p q) = _
  exact congrArg₂ (· + ·)
    (RowColDot.matmul_rowcol dot_S5000x256_S256x128_S5000x128_1_0_0_1_n_n rfl rfl rfl rfl dot2_keeps_row dot2_keeps_col none h P4 (ix2 p q))
    (row_at P5 _ _ p q)

/-- The column of means at `(p, u)`: the mean of row `p`. -/
theorem meanColumn_at (g : FVec Ideal S5000x128 .f32) (p : Fin 5000) (u : Fin 1) :
    meanColumn g (ix2 p u) = NodeRow.mean (fun q => g (ix2 p q)) := by
  unfold meanColumn NodeRow.mean
  show Ideal.div (shapeCast S5000x1 _ shapeCasts_S5000_S5000x1 (ix2 p u)) (Ideal.ofBits .f32 0x43000000#32) = _
  refine congrArg (Ideal.div · _) ?_
  refine (shapeCast_a_a1_apply _ shapeCasts_S5000_S5000x1 p u).trans ?_
  refine (Ideal.multiReduction_add_single g 0x00000000#32 reduces_S5000x128_S5000 (.inl rfl) rfl (ix1 p)).trans ?_
  exact Finset.sum_congr rfl fun k _ => congrArg g (funext fun a => Fin.ext (by match a with | ⟨0, _⟩ => rfl | ⟨1, _⟩ => rfl))

/-- The normalisation at `(p, q)`: row `p` normalised, at `q`. -/
theorem normBlock_at (g : FVec Ideal S5000x128 .f32) (p : Fin 5000) (q : Fin 128) :
    normBlock g (ix2 p q) = NodeRow.normed (fun q' => g (ix2 p q')) q := by
  have emean : ∀ q' : Fin 128, broadcastTo S5000x128 (meanColumn g) broadcasts_S5000x1_S5000x128 (ix2 p q')
      = NodeRow.mean (fun q => g (ix2 p q)) := fun q' =>
    (Cert.WeightUpdate.Layout.broadcastTo_a1_ab_apply _ broadcasts_S5000x1_S5000x128 p q').trans (meanColumn_at g p 0)
  unfold normBlock NodeRow.normed
  show (g (ix2 p q) - broadcastTo S5000x128 (meanColumn g) broadcasts_S5000x1_S5000x128 (ix2 p q) : EReal)
      * broadcastTo S5000x128 _ broadcasts_S5000x1_S5000x128 (ix2 p q) = _
  refine congrArg₂ (· * ·) (congrArg (g (ix2 p q) - ·) (emean q)) ?_
  refine (Cert.WeightUpdate.Layout.broadcastTo_a1_ab_apply _ broadcasts_S5000x1_S5000x128 p q).trans ?_
  show Ideal.rsqrt (meanColumn _ (ix2 p (0 : Fin 1)) + Ideal.ofBits .f32 0x3727C5AC#32) = _
  refine congrArg (fun v => Ideal.rsqrt (v + Ideal.ofBits .f32 0x3727C5AC#32)) ?_
  refine (meanColumn_at _ p 0).trans (congrArg NodeRow.mean (funext fun q' => ?_))
  show (g (ix2 p q') - broadcastTo S5000x128 (meanColumn g) broadcasts_S5000x1_S5000x128 (ix2 p q') : EReal)
      * (g (ix2 p q') - broadcastTo S5000x128 (meanColumn g) broadcasts_S5000x1_S5000x128 (ix2 p q')) = _
  rw [emean q']

/-! ## The block -/

/-- The second payload at `(p, q)`: the normalised second linear map of row `p`'s hidden layer. -/
theorem pay2_at (P0 P1 : Vec Ideal S5000x128 .f32) (P2 : Vec Ideal S256x256 .f32) (P3 : Vec Ideal S1x256 .f32)
    (P4 : Vec Ideal S256x128 .f32) (P5 : Vec Ideal S1x128 .f32) (p : Fin 5000) (q : Fin 128) :
    k0_pay2 P0 P1 P2 P3 P4 P5 (ix2 p q)
      = NodeRow.normed (NodeRow.project
          (NodeRow.hidden (fun c => P0 (ix2 p c)) (fun c => P1 (ix2 p c)) (fun j k => P2 (ix2 j k)) (fun k => P3 (ix2 (0 : Fin 1) k)))
          (fun k q => P4 (ix2 k q)) (fun q => P5 (ix2 (0 : Fin 1) q))) q := by
  rw [pay2_stages]
  refine (normBlock_at _ p q).trans (congrArg (NodeRow.normed · q) (funext fun q' => ?_))
  refine (project_at _ P4 P5 p q').trans ?_
  unfold NodeRow.project
  refine congrArg (· + P5 (ix2 (0 : Fin 1) q')) (Finset.sum_congr rfl fun k _ => congrArg (· * P4 (ix2 k q')) ?_)
  rw [silu_at, affine_at]
  rfl

/-- What the body leaves in the output block at `(p, q)`: the node update of row `p` of the two feature blocks. -/
theorem block_at (P0 P1 : Vec Ideal S5000x128 .f32) (P2 : Vec Ideal S256x256 .f32) (P3 : Vec Ideal S1x256 .f32)
    (P4 : Vec Ideal S256x128 .f32) (P5 P6 P7 : Vec Ideal S1x128 .f32) (p : Fin 5000) (q : Fin 128) :
    Cert.KernelIdeal.Value.E8 P0 P1 P2 P3 P4 P5 P6 P7 (ix2 p q)
      = NodeRow.out (fun c => P0 (ix2 p c)) (fun c => P1 (ix2 p c)) (fun j k => P2 (ix2 j k)) (fun k => P3 (ix2 (0 : Fin 1) k))
          (fun k q => P4 (ix2 k q)) (fun q => P5 (ix2 (0 : Fin 1) q)) (fun q => P6 (ix2 (0 : Fin 1) q))
          (fun q => P7 (ix2 (0 : Fin 1) q)) q := by
  have e0 : Cert.KernelIdeal.Value.ix8_0 (ix2 p q) = ix2 p q :=
    funext fun a => by match a with | ⟨0, _⟩ => rfl | ⟨1, _⟩ => rfl
  have e1 : Cert.KernelIdeal.Value.ix8_1 (ix2 p q) = ix2 p q :=
    funext fun a => by match a with | ⟨0, _⟩ => rfl | ⟨1, _⟩ => rfl
  have e2 : Cert.KernelIdeal.Value.ix8_2 (ix2 p q) = ix2 (0 : Fin 1) q :=
    funext fun a => by match a with | ⟨0, _⟩ => rfl | ⟨1, _⟩ => rfl
  have e3 : Cert.KernelIdeal.Value.ix8_3 (ix2 p q) = ix2 (0 : Fin 1) q :=
    funext fun a => by match a with | ⟨0, _⟩ => rfl | ⟨1, _⟩ => rfl
  show (P0 (Cert.KernelIdeal.Value.ix8_0 (ix2 p q)) : EReal)
      + (k0_pay2 P0 P1 P2 P3 P4 P5 (Cert.KernelIdeal.Value.ix8_1 (ix2 p q)) * P6 (Cert.KernelIdeal.Value.ix8_2 (ix2 p q))
          + P7 (Cert.KernelIdeal.Value.ix8_3 (ix2 p q))) = _
  rw [e0, e1, e2, e3, pay2_at]
  rfl

end Cert.KernelRows

end
-- ==== Proof.KernelArray.lean ====
/-
  From the kernel's blocks to its result array.

  The launch cuts the 50000 nodes into ten blocks of 5000 consecutive rows. At grid point `t` the body sees rows
  `5000·t … 5000·t + 4999` of the node features and of the aggregated edge features, and the whole of every weight array
  (a bias reaches it as a one-row array); it writes back rows `5000·t …` of the result. A row's update reads that row
  only (`KernelRows.block_at`), so what point `t` writes back is block `t` of ONE function of the arrays as the region
  finds them — the layer `NodeRow.update` — and the ten blocks cover the array: the result array ends holding the layer.

-/
import proofs.«105040_j31825707663673_1_alg».proof.Proof.Gen.KernelIdeal.Value
import proofs.«105040_j31825707663673_1_alg».proof.Proof.KernelRows
import proofs.«105040_j31825707663673_1_alg».proof.Proof.NodeRow
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-! ## One entry of the output block, over any blocks -/

/-- The output block at `(p, q)` is the node update of row `p` of the two feature blocks. -/
theorem out_block (x0 x1 : Vec Ideal S5000x128 .f32) (x2 : Vec Ideal S256x256 .f32) (x3 : Vec Ideal S1x256 .f32)
    (x4 : Vec Ideal S256x128 .f32) (x5 x6 x7 : Vec Ideal S1x128 .f32) (p : Fin 5000) (q : Fin 128) :
    out0_8 x0 x1 x2 x3 x4 x5 x6 x7 (ix2 p q)
      = NodeRow.out (fun c => x0 (ix2 p c)) (fun c => x1 (ix2 p c)) (fun j k => x2 (ix2 j k)) (fun k => x3 (ix2 (0 : Fin 1) k))
          (fun k q => x4 (ix2 k q)) (fun q => x5 (ix2 (0 : Fin 1) q)) (fun q => x6 (ix2 (0 : Fin 1) q))
          (fun q => x7 (ix2 (0 : Fin 1) q)) q := by
  unfold out0_8
  refine (canon8_eq _ _ _ _ _ _ _ _ (ix2 p q)).trans ?_
  rw [View.ld_unit_zero (S := S5000x128) zero_offsets, View.ld_unit_zero (S := S5000x128) zero_offsets,
    View.ld_unit_zero (S := S256x256) zero_offsets, View.ld_unit_zero (S := S1x256) zero_offsets,
    View.ld_unit_zero (S := S256x128) zero_offsets, View.ld_unit_zero (S := S1x128) zero_offsets,
    View.ld_unit_zero (S := S1x128) zero_offsets, View.ld_unit_zero (S := S1x128) zero_offsets]
  exact KernelRows.block_at x0 x1 x2 x3 x4 x5 x6 x7 p q

/-- An entry `y` of the output block is entry `i` of the layer of whole arrays `X`, `A` and weights, as soon as row
    `y 0` of the two feature blocks is row `i 0` of `X` and `A`, the weight blocks are the weights, and `y`, `i` have
    the same column. -/
theorem entry_of_blocks (X A : S50000x128.Idx → EReal) (W1 : Fin 256 → Fin 256 → EReal) (b1 : Fin 256 → EReal)
    (W2 : Fin 256 → Fin 128 → EReal) (b2 γ β : Fin 128 → EReal)
    (x0 x1 : Vec Ideal S5000x128 .f32) (x2 : Vec Ideal S256x256 .f32) (x3 : Vec Ideal S1x256 .f32)
    (x4 : Vec Ideal S256x128 .f32) (x5 x6 x7 : Vec Ideal S1x128 .f32) (y : S5000x128.Idx) (i : S50000x128.Idx)
    (h0 : ∀ cc : Fin 128, x0 (ix2 (y 0) cc) = X (ix2 (i 0) cc)) (h1 : ∀ cc : Fin 128, x1 (ix2 (y 0) cc) = A (ix2 (i 0) cc))
    (h2 : ∀ j k, x2 (ix2 j k) = W1 j k) (h3 : ∀ k, x3 (ix2 (0 : Fin 1) k) = b1 k)
    (h4 : ∀ k q, x4 (ix2 k q) = W2 k q) (h5 : ∀ q, x5 (ix2 (0 : Fin 1) q) = b2 q)
    (h6 : ∀ q, x6 (ix2 (0 : Fin 1) q) = γ q) (h7 : ∀ q, x7 (ix2 (0 : Fin 1) q) = β q)
    (hq : (i 1).val = (y 1).val) :
    out0_8 x0 x1 x2 x3 x4 x5 x6 x7 y = NodeRow.update X A W1 b1 W2 b2 γ β i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hq
  have e0 : (fun cc => x0 (ix2 p cc)) = fun cc => X (ix2 r cc) := funext h0
  have e1 : (fun cc => x1 (ix2 p cc)) = fun cc => A (ix2 r cc) := funext h1
  have e2 : (fun j k => x2 (ix2 j k)) = W1 := funext fun j => funext fun k => h2 j k
  have e3 : (fun k => x3 (ix2 (0 : Fin 1) k)) = b1 := funext h3
  have e4 : (fun k q => x4 (ix2 k q)) = W2 := funext fun k => funext fun q => h4 k q
  have e5 : (fun q => x5 (ix2 (0 : Fin 1) q)) = b2 := funext h5
  have e6 : (fun q => x6 (ix2 (0 : Fin 1) q)) = γ := funext h6
  have e7 : (fun q => x7 (ix2 (0 : Fin 1) q)) = β := funext h7
  rw [out_block, NodeRow.update_apply, e0, e1, e2, e3, e4, e5, e6, e7]

/-! ## The grid -/

/-- The printed index maps over the ten points: the two feature windows and the output move down one block of rows per
    point; every weight window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

end Cert.KernelArray

end
-- ==== Proof.KernelReads.lean ====
/-
  The kernel's input blocks as pieces of the arrays the region finds.

  Point `t`'s block of a feature array is the array's rows `5000·t … 5000·t + 4999`: entry `y` of the block is the
  array's entry `5000·t` rows further down, same column. Every weight window stages its whole array at every point, so
  its block is the array.
-/
import proofs.«105040_j31825707663673_1_alg».proof.Proof.KernelArray
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelReads

open Cert.KernelIdeal Cert.KernelIdeal.Gen Cert.KernelIdeal.Value Cert.KernelArray

variable (m : (ℓ : Loc nD τ sig) → Buf (Elt Ideal) ℓ) (ρ : Dev nD → PrngReg)

/-! ## The input blocks as rows of the arrays the region finds -/

/-- Point `t`'s block of node features: entry `y` is the array's entry `5000·t` rows further down. -/
theorem read_nodes (c : Dev nD) (t : Fin cfg0.N) (y : S5000x128.Idx) (i : S50000x128.Idx)
    (h0 : (i 0).val = 5000 * t.val + (y 0).val) (h1 : (i 1).val = (y 1).val) :
    (iblk m c 0 t : Vec Ideal S5000x128 .f32) y = V m c main_arg0 i := by
  obtain ⟨f00, f01, f10, f11, -⟩ := idx_facts t
  unfold iblk
  rw [View.read_apply]
  show V m c main_arg0 (((cfg0.win 0).blk t).view.emb y) = V m c main_arg0 i
  refine congrArg (V m c main_arg0) (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The same for the aggregated edge features. That array is a host computation's result, so it is carried as a
    variable `A` (whatever the region finds there, `hA`): nothing here depends on what it holds. -/
theorem read_agg (c : Dev nD) (t : Fin cfg0.N) (A : S50000x128.Idx → EReal) (hA : V m c (Pipeline.arrRef spec0 1) = A)
    (y : S5000x128.Idx) (i : S50000x128.Idx)
    (h0 : (i 0).val = 5000 * t.val + (y 0).val) (h1 : (i 1).val = (y 1).val) :
    (iblk m c 1 t : Vec Ideal S5000x128 .f32) y = A i := by
  obtain ⟨f00, f01, f10, f11, -⟩ := idx_facts t
  unfold iblk
  rw [hA, View.read_apply]
  refine congrArg A (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- Every weight window stages its whole array at every point. -/
theorem read_w1 (c : Dev nD) (t : Fin cfg0.N) (y : S256x256.Idx) :
    (iblk m c 2 t : Vec Ideal S256x256 .f32) y = V m c main_arg3 y := by
  obtain ⟨-, -, -, -, f20, f21, f30, f31, f40, f41, f50, f51, f60, f61, f70, f71, -, -⟩ := idx_facts t
  unfold iblk
  rw [View.read_apply]
  show V m c main_arg3 (((cfg0.win 2).blk t).view.emb y) = V m c main_arg3 y
  refine congrArg (V m c main_arg3) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem read_b1 (c : Dev nD) (t : Fin cfg0.N) (y : S1x256.Idx) :
    (iblk m c 3 t : Vec Ideal S1x256 .f32) y = V m c main_v5 y := by
  obtain ⟨-, -, -, -, f20, f21, f30, f31, f40, f41, f50, f51, f60, f61, f70, f71, -, -⟩ := idx_facts t
  unfold iblk
  rw [View.read_apply]
  show V m c main_v5 (((cfg0.win 3).blk t).view.emb y) = V m c main_v5 y
  refine congrArg (V m c main_v5) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem read_w2 (c : Dev nD) (t : Fin cfg0.N) (y : S256x128.Idx) :
    (iblk m c 4 t : Vec Ideal S256x128 .f32) y = V m c main_arg5 y := by
  obtain ⟨-, -, -, -, f20, f21, f30, f31, f40, f41, f50, f51, f60, f61, f70, f71, -, -⟩ := idx_facts t
  unfold iblk
  rw [View.read_apply]
  show V m c main_arg5 (((cfg0.win 4).blk t).view.emb y) = V m c main_arg5 y
  refine congrArg (V m c main_arg5) (funext fun a => Fin.ext ?_)
  match a with
  | ⟨0, _⟩ => show win0_4.index t (0 : Fin 2) * 256 + 1 * (y 0).val = (y 0).val; omega
  | ⟨1, _⟩ => show win0_4.index t (1 : Fin 2) * 128 + 1 * (y 1).val = (y 1).val; omega

theorem read_b2 (c : Dev nD) (t : Fin cfg0.N) (y : S1x128.Idx) :
    (iblk m c 5 t : Vec Ideal S1x128 .f32) y = V m c main_v6 y := by
  obtain ⟨-, -, -, -, f20, f21, f30, f31, f40, f41, f50, f51, f60, f61, f70, f71, -, -⟩ := idx_facts t
  unfold iblk
  rw [View.read_apply]
  show V m c main_v6 (((cfg0.win 5).blk t).view.emb y) = V m c main_v6 y
  refine congrArg (V m c main_v6) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem read_gamma (c : Dev nD) (t : Fin cfg0.N) (y : S1x128.Idx) :
    (iblk m c 6 t : Vec Ideal S1x128 .f32) y = V m c main_v7 y := by
  obtain ⟨-, -, -, -, f20, f21, f30, f31, f40, f41, f50, f51, f60, f61, f70, f71, -, -⟩ := idx_facts t
  unfold iblk
  rw [View.read_apply]
  show V m c main_v7 (((cfg0.win 6).blk t).view.emb y) = V m c main_v7 y
  refine congrArg (V m c main_v7) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem read_beta (c : Dev nD) (t : Fin cfg0.N) (y : S1x128.Idx) :
    (iblk m c 7 t : Vec Ideal S1x128 .f32) y = V m c main_v8 y := by
  obtain ⟨-, -, -, -, f20, f21, f30, f31, f40, f41, f50, f51, f60, f61, f70, f71, -, -⟩ := idx_facts t
  unfold iblk
  rw [View.read_apply]
  show V m c main_v8 (((cfg0.win 7).blk t).view.emb y) = V m c main_v8 y
  refine congrArg (V m c main_v8) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

end Cert.KernelReads

end
-- ==== Proof.KernelHost.lean ====
/-
  The arrays the host computes before the kernel's region, as terms of the arguments.

  The aggregated edge features are the scatter-add, onto zeros, of the edge features along row 1 of the edge list (their
  destination nodes): one term, which nothing opens. Each bias vector reaches the region reshaped to a one-row array.
-/
import proofs.«105040_j31825707663673_1_alg».proof.Proof.Gen.KernelIdeal.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelHost

open Cert.KernelIdeal Cert.KernelIdeal.Gen Cert.KernelIdeal.Value

variable (m : (ℓ : Loc nD τ sig) → Buf (Elt Ideal) ℓ) (ρ : Dev nD → PrngReg)

/-! ## The arrays the host computed before the region -/

/-- The edge features summed onto their destination nodes: the scatter-add, onto zeros, of the edge features along row 1
    of the edge list. One term of the two arguments; nothing below opens it. -/
def aggregated (edges : (⟨S2x800000, .i32⟩ : BufTy).Contents (Elt Ideal)) (feats : (⟨S800000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] edges slices_S2x800000_S1x800000_1_0) shapeCasts_S1x800000_S800000))
    feats

theorem V_agg (c : Dev nD) : V m c main_v4 = aggregated (m ((c : Thread nD τ).loc main_arg1)) (m ((c : Thread nD τ).loc main_arg2)) := by
  dsimp only [V, hostOps0]
  after_results
  rfl

/-- The same array under the name the launch gives it: the array of the kernel's second window. -/
theorem agg_window (c : Dev nD) :
    V m c (Pipeline.arrRef spec0 1) = aggregated (m ((c : Thread nD τ).loc main_arg1)) (m ((c : Thread nD τ).loc main_arg2)) :=
  (rfl : V m c (Pipeline.arrRef spec0 1) = V m c main_v4).trans (V_agg m c)

theorem V_b1 (c : Dev nD) : V m c main_v5 = shapeCast _ (m ((c : Thread nD τ).loc main_arg4)) shapeCasts_S256_S1x256 := by
  dsimp only [V, hostOps0]
  after_results
  rfl

theorem V_b2 (c : Dev nD) : V m c main_v6 = shapeCast _ (m ((c : Thread nD τ).loc main_arg6)) shapeCasts_S128_S1x128 := by
  dsimp only [V, hostOps0]
  after_results
  rfl

theorem V_gamma (c : Dev nD) : V m c main_v7 = shapeCast _ (m ((c : Thread nD τ).loc main_arg7)) shapeCasts_S128_S1x128 := by
  dsimp only [V, hostOps0]
  after_results
  rfl

theorem V_beta (c : Dev nD) : V m c main_v8 = shapeCast _ (m ((c : Thread nD τ).loc main_arg8)) shapeCasts_S128_S1x128 := by
  dsimp only [V, hostOps0]
  after_results
  rfl

end Cert.KernelHost

end
-- ==== Proof.KernelResult.lean ====
/-
  The kernel's result array is the layer of the arguments.

  What grid point `t` writes back is block `t` — rows `5000·t … 5000·t + 4999` — of ONE function of the arrays as the
  region finds them, the layer `NodeRow.update`: a row's update reads that row of the two feature arrays only, and the
  point's input blocks are those rows (Proof/KernelReads.lean). The ten blocks cover the 50000 rows (row `r` lies in the
  block of point `r / 5000`), so the result array ends holding the layer; with the host-computed arrays read back as terms
  of the arguments (Proof/KernelHost.lean) nothing of the launch is left in it.
-/
import proofs.«105040_j31825707663673_1_alg».proof.Proof.KernelReads
import proofs.«105040_j31825707663673_1_alg».proof.Proof.KernelHost
import proofs.«105040_j31825707663673_1_alg».proof.Proof.NodeRow
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelResult

open Cert.KernelIdeal Cert.KernelIdeal.Gen Cert.KernelIdeal.Value Cert.KernelArray Cert.KernelReads Cert.KernelHost

variable (m : (ℓ : Loc nD τ sig) → Buf (Elt Ideal) ℓ) (ρ : Dev nD → PrngReg)

/-! ## What a point writes back, and the cover -/

/-- The layer of the arrays as the region finds them; the aggregated edge features are a variable `A`. -/
def layer (c : Dev nD) (A : S50000x128.Idx → EReal) : S50000x128.Idx → EReal :=
  NodeRow.update (V m c main_arg0) A (fun j k => V m c main_arg3 (ix2 j k))
    (fun k => V m c main_v5 (ix2 (0 : Fin 1) k)) (fun k q => V m c main_arg5 (ix2 k q))
    (fun q => V m c main_v6 (ix2 (0 : Fin 1) q)) (fun q => V m c main_v7 (ix2 (0 : Fin 1) q))
    (fun q => V m c main_v8 (ix2 (0 : Fin 1) q))

/-- One entry of what point `t` leaves in the output block: the layer's entry `5000·t` rows further down. -/
theorem flushed_entry (c : Dev nD) (t : Fin cfg0.N) (A : S50000x128.Idx → EReal)
    (hA : V m c (Pipeline.arrRef spec0 1) = A) (y : S5000x128.Idx) :
    out0_8 (iblk m c 0 t) (iblk m c 1 t) (iblk m c 2 t) (iblk m c 3 t) (iblk m c 4 t) (iblk m c 5 t) (iblk m c 6 t) (iblk m c 7 t) y
      = layer m c A (((cfg0.win 8).blk t).view.emb y) := by
  obtain ⟨-, -, -, -, -, -, -, -, -, -, -, -, -, -, -, -, f80, f81⟩ := idx_facts t
  have hr : ((((cfg0.win 8).blk t).view.emb y) 0).val = 5000 * t.val + (y 0).val := by
    show win0_8.index t (0 : Fin 2) * 5000 + 1 * (y 0).val = 5000 * t.val + (y 0).val
    omega
  have hc : ((((cfg0.win 8).blk t).view.emb y) 1).val = (y 1).val := by
    show win0_8.index t (1 : Fin 2) * 128 + 1 * (y 1).val = (y 1).val
    omega
  unfold layer
  exact entry_of_blocks (V m c main_arg0) A (fun j k => V m c main_arg3 (ix2 j k))
    (fun k => V m c main_v5 (ix2 (0 : Fin 1) k)) (fun k q => V m c main_arg5 (ix2 k q))
    (fun q => V m c main_v6 (ix2 (0 : Fin 1) q)) (fun q => V m c main_v7 (ix2 (0 : Fin 1) q))
    (fun q => V m c main_v8 (ix2 (0 : Fin 1) q))
    (iblk m c 0 t) (iblk m c 1 t) (iblk m c 2 t) (iblk m c 3 t) (iblk m c 4 t) (iblk m c 5 t) (iblk m c 6 t) (iblk m c 7 t)
    y (((cfg0.win 8).blk t).view.emb y)
    (fun cc => read_nodes m c t (ix2 (y 0) cc) (ix2 ((((cfg0.win 8).blk t).view.emb y) 0) cc) hr rfl)
    (fun cc => read_agg m c t A hA (ix2 (y 0) cc) (ix2 ((((cfg0.win 8).blk t).view.emb y) 0) cc) hr rfl)
    (fun j k => read_w1 m c t (ix2 j k)) (fun k => read_b1 m c t (ix2 (0 : Fin 1) k))
    (fun k q => read_w2 m c t (ix2 k q)) (fun q => read_b2 m c t (ix2 (0 : Fin 1) q))
    (fun q => read_gamma m c t (ix2 (0 : Fin 1) q)) (fun q => read_beta m c t (ix2 (0 : Fin 1) q)) hc

/-- Point `t` writes back block `t` of the layer. -/
theorem flushed_eq (c : Dev nD) (t : Fin cfg0.N) (A : S50000x128.Idx → EReal) (hA : V m c (Pipeline.arrRef spec0 1) = A) :
    (dats m 0 c).flushed 8 t = ((cfg0.win 8).blk t).view.read (Elt Ideal) (layer m c A) := by
  rw [flushed8]
  exact funext fun y => flushed_entry m c t A hA y

/-- An index of the array is in point `t`'s block iff each coordinate is in the block's range on its axis. -/
theorem mem_blk (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v9).slice (win0_8.rect t)).set ↔ _
  rw [View.set_slice_whole, Rect.mem_set_unit]
  exact Iff.rfl

/-- Every row lies in the block of the point `row / 5000`. -/
theorem covered (i : S50000x128.Idx) :
    ∃ t : Fin cfg0.N, (cfg0.win 8).flush t = true ∧ i ∈ ((cfg0.win 8).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, -, -, -, -, -, -, f80, f81⟩ := idx_facts t
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 128 ≤ (i 1).val ∧ (i 1).val < win0_8.index t (1 : Fin 2) * 128 + 128
    omega

/-- So the result array ends holding the layer. -/
theorem final (c : Dev nD) (A : S50000x128.Idx → EReal) (hA : V m c (Pipeline.arrRef spec0 1) = A) :
    (dats m 0 c).arrAt 8 cfg0.N = layer m c A :=
  (dats m 0 c).arrAt_eq_of_cover 8 (layer m c A) (fun t _ => flushed_eq m c t A hA) covered

/-- The layer of the arguments: what the result array holds, with nothing of the launch left in it. -/
abbrev result (c : Dev nD) : S50000x128.Idx → EReal :=
  NodeRow.update (m ((c : Thread nD τ).loc main_arg0)) (aggregated (m ((c : Thread nD τ).loc main_arg1)) (m ((c : Thread nD τ).loc main_arg2)))
    (fun j k => (m ((c : Thread nD τ).loc main_arg3)) (ix2 j k)) (fun k => (m ((c : Thread nD τ).loc main_arg4)) (ix1 k))
    (fun k q => (m ((c : Thread nD τ).loc main_arg5)) (ix2 k q)) (fun q => (m ((c : Thread nD τ).loc main_arg6)) (ix1 q))
    (fun q => (m ((c : Thread nD τ).loc main_arg7)) (ix1 q)) (fun q => (m ((c : Thread nD τ).loc main_arg8)) (ix1 q))

theorem layer_eq (c : Dev nD) :
    layer m c (aggregated (m ((c : Thread nD τ).loc main_arg1)) (m ((c : Thread nD τ).loc main_arg2))) = result m c := by
  have e1 : (fun k : Fin 256 => V m c main_v5 (ix2 (0 : Fin 1) k)) = fun k => (m ((c : Thread nD τ).loc main_arg4)) (ix1 k) :=
    funext fun k => by rw [V_b1]; exact shapeCast_a_1a_apply _ _ 0 k
  have e2 : (fun q : Fin 128 => V m c main_v6 (ix2 (0 : Fin 1) q)) = fun q => (m ((c : Thread nD τ).loc main_arg6)) (ix1 q) :=
    funext fun q => by rw [V_b2]; exact shapeCast_a_1a_apply _ _ 0 q
  have e3 : (fun q : Fin 128 => V m c main_v7 (ix2 (0 : Fin 1) q)) = fun q => (m ((c : Thread nD τ).loc main_arg7)) (ix1 q) :=
    funext fun q => by rw [V_gamma]; exact shapeCast_a_1a_apply _ _ 0 q
  have e4 : (fun q : Fin 128 => V m c main_v8 (ix2 (0 : Fin 1) q)) = fun q => (m ((c : Thread nD τ).loc main_arg8)) (ix1 q) :=
    funext fun q => by rw [V_beta]; exact shapeCast_a_1a_apply _ _ 0 q
  unfold layer
  rw [e1, e2, e3, e4, V_main_arg0, V_main_arg3, V_main_arg5]

/-! ## The run -/

/-- Every weakly fair execution of the kernel's program ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c _ (agg_window m c)).trans (layer_eq m c)), (h c).2⟩) (run_blocks m ρ)

end Cert.KernelResult

end
-- ==== Proof.lean ====
/-
  A message-passing layer, computed two ways, gives one result on the extended reals.

  Both programs first sum every edge's features onto the edge's destination node (a scatter-add over 800000 edges onto
  50000 nodes). Then, node by node: the node's own 128 features and its 128 aggregated features are laid side by side,
  sent through a linear map to 256 numbers, through the SiLU function `z · σ(z)`, through a second linear map back to 128 numbers,
  normalised along the row (centred at the mean, scaled by `(variance + ε)^(-1/2)`, the means being sums over 128), scaled
  entry by entry, shifted, and added to the node's own features.

  The kernel's program does the aggregation on the host and the rest in ten launches of one body over blocks of 5000
  nodes; the reference does everything with whole-array host operations. The two spell the same arithmetic in the same
  order, with the same three float constants, so no law of the extended reals beyond `0 + s = s` is needed and the
  precondition is never opened. The differences are of spelling only: a matrix product into a zero accumulator against a
  plain one, a lane sum against a row sum from zero, one-row arrays broadcast down a block against vectors broadcast
  along an axis, and the SiLU function written with the logistic function against `1 / (1 + e^(-z))` over the word 1.0.

  Proof/NodeRow.lean states one node's update and the layer (no program in it); Proof/RefRows.lean reads the reference's
  stages at an entry and finds the layer; Proof/KernelRows.lean reads the body's arithmetic at an entry of a block;
  Proof/KernelArray.lean, Proof/KernelReads.lean, Proof/KernelHost.lean and Proof/KernelResult.lean carry the blocks to the
  result array and find the same layer. The aggregation is one term on
  both sides and is never opened. The frames are the generated ones; no operation was rewritten on the way to the
  extended-real reading of the kernel, so the idealization claim has no conjunct.
-/
import proofs.«105040_j31825707663673_1_alg».proof.Defs
import proofs.«105040_j31825707663673_1_alg».proof.Proof.Gen.Kernel
import proofs.«105040_j31825707663673_1_alg».proof.Proof.Gen.Kernel.Skeleton
import proofs.«105040_j31825707663673_1_alg».proof.Proof.Gen.Kernel.Launch
import proofs.«105040_j31825707663673_1_alg».proof.Proof.Gen.Kernel.Points
import proofs.«105040_j31825707663673_1_alg».proof.Proof.Gen.Kernel.Frame
import proofs.«105040_j31825707663673_1_alg».proof.Proof.Gen.KernelIdeal
import proofs.«105040_j31825707663673_1_alg».proof.Proof.Gen.KernelIdeal.Skeleton
import proofs.«105040_j31825707663673_1_alg».proof.Proof.Gen.KernelIdeal.Launch
import proofs.«105040_j31825707663673_1_alg».proof.Proof.Gen.KernelIdeal.Points
import proofs.«105040_j31825707663673_1_alg».proof.Proof.Gen.KernelIdeal.Frame
import proofs.«105040_j31825707663673_1_alg».proof.Proof.Gen.ReferenceIdeal
import proofs.«105040_j31825707663673_1_alg».proof.Proof.Gen.Pre_finite_inputs
import proofs.«105040_j31825707663673_1_alg».proof.Proof.Gen.KernelIdeal.Value
import proofs.«105040_j31825707663673_1_alg».proof.Proof.Gen.ReferenceIdeal.Run
import proofs.«105040_j31825707663673_1_alg».proof.Proof.Gen.ReferenceIdeal.Read
import proofs.«105040_j31825707663673_1_alg».proof.Proof.RefRows
import proofs.«105040_j31825707663673_1_alg».proof.Proof.KernelResult
import Idealize.ShloMosaic.Adequacy
import Idealize.ShloMosaic.Init

noncomputable section

namespace Cert.Proof

open Idealize.ShloMosaic Idealize.SL.Sem Cert.Kernel

/-- The word-level kernel's program runs and leaves its arguments as they were. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended-real reading: nothing to restate. -/
theorem preserves : Cert.preserves_Kernel_KernelIdeal := trivial

/-- From memories that agree on the arguments both programs end with the layer of those arguments in their result
    arrays: the kernel's by `KernelResult.run`, the reference's by its run and `RefRows.result_eq`. The two aggregation
    terms are the same scatter-add of the same operands. -/
theorem algebraic : Cert.algebraic_KernelIdeal_ReferenceIdeal := by
  intro m ρ m' ρ' _ hagree
  refine ⟨fun c => Cert.KernelResult.result m c, Cert.KernelResult.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v39_eq, Cert.RefRows.result_eq, a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
